-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1x256 : Shape := ⟨2, ![1, 256]⟩
abbrev S2x800000 : Shape := ⟨2, ![2, 800000]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S50000x128 .f32) (main_arg1 : FVec F S1x256 .f32) (main_arg2 : IVec S2x800000 32) (main_arg3 : IVec S800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  main_v8
-- ==== Kernel.lean ====
abbrev S50000x128 : Shape := ⟨2, ![50000, 128]⟩
abbrev S1x256 : Shape := ⟨2, ![1, 256]⟩
abbrev S2x800000 : Shape := ⟨2, ![2, 800000]⟩
abbrev S800000 : Shape := ⟨1, ![800000]⟩
abbrev S1x800000 : Shape := ⟨2, ![1, 800000]⟩
abbrev S1x128 : Shape := ⟨2, ![1, 128]⟩
abbrev S2x128 : Shape := ⟨2, ![2, 128]⟩
abbrev S128x2 : Shape := ⟨2, ![128, 2]⟩
abbrev S50000x2 : Shape := ⟨2, ![50000, 2]⟩
abbrev S5000x128 : Shape := ⟨2, ![5000, 128]⟩
abbrev S5000x2 : Shape := ⟨2, ![5000, 2]⟩
abbrev S50000x1 : Shape := ⟨2, ![50000, 1]⟩
abbrev S50000 : Shape := ⟨1, ![50000]⟩
abbrev S_ : Shape := ⟨0, ![]⟩
abbrev S800000x1 : Shape := ⟨2, ![800000, 1]⟩

abbrev nBuf : Space → Nat
  | .hbm => 55
  | .vmem => 5
  | .smem => 0
  | _ => 0

abbrev bufTy : (tb : Table) → Fin (tcTables nBuf tb) → BufTy
  | .hbm, ⟨0, _⟩ => ⟨S50000x128, .f32⟩
  | .hbm, ⟨1, _⟩ => ⟨S1x256, .f32⟩
  | .hbm, ⟨2, _⟩ => ⟨S2x800000, .i32⟩
  | .hbm, ⟨3, _⟩ => ⟨S800000, .i32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S1x128, .f32⟩
  | .hbm, ⟨9, _⟩ => ⟨S1x128, .f32⟩
  | .hbm, ⟨10, _⟩ => ⟨S2x128, .f32⟩
  | .hbm, ⟨11, _⟩ => ⟨S128x2, .f32⟩
  | .hbm, ⟨12, _⟩ => ⟨S50000x2, .f32⟩
  | .hbm, ⟨13, _⟩ => ⟨S50000x1, .f32⟩
  | .hbm, ⟨14, _⟩ => ⟨S50000, .f32⟩
  | .hbm, ⟨15, _⟩ => ⟨S50000x1, .f32⟩
  | .hbm, ⟨16, _⟩ => ⟨S50000, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000, .f32⟩
  | .hbm, ⟨35, _⟩ => ⟨S800000, .f32⟩
  | .hbm, ⟨36, _⟩ => ⟨S800000, .f32⟩
  | .hbm, ⟨37, _⟩ => ⟨S800000, .f32⟩
  | .hbm, ⟨38, _⟩ => ⟨S_, .f32⟩
  | .hbm, ⟨39, _⟩ => ⟨S800000, .f32⟩
  | .hbm, ⟨40, _⟩ => ⟨S800000, .f32⟩
  | .hbm, ⟨41, _⟩ => ⟨S_, .f32⟩
  | .hbm, ⟨42, _⟩ => ⟨S800000, .f32⟩
  | .hbm, ⟨43, _⟩ => ⟨S800000, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000, .f32⟩
  | .hbm, ⟨53, _⟩ => ⟨S800000, .f32⟩
  | .hbm, ⟨54, _⟩ => ⟨S800000x1, .f32⟩
  | .local _ .vmem, ⟨0, _⟩ => ⟨S5000x128, .f32⟩
  | .local _ .vmem, ⟨1, _⟩ => ⟨S5000x128, .f32⟩
  | .local _ .vmem, ⟨2, _⟩ => ⟨S128x2, .f32⟩
  | .local _ .vmem, ⟨3, _⟩ => ⟨S5000x2, .f32⟩
  | .local _ .vmem, ⟨4, _⟩ => ⟨S5000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_c_4 : Ref sig .tc := ⟨.hbm, 44, rfl⟩
abbrev main_v34 : Ref sig .tc := ⟨.hbm, 45, rfl⟩
abbrev main_v35 : Ref sig .tc := ⟨.hbm, 46, rfl⟩
abbrev main_c_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S1x256_S1x128_0_0 : S1x256.Slices ![0, 0] S1x128
  slices_S1x256_S1x128_0_128 : S1x256.Slices ![0, 128] S1x128
  concatenates_S1x128_S1x128_S2x128_d0 : Shape.Concatenates [S1x128, S1x128] S2x128 0
  transposes_S2x128_S128x2_1_0 : S2x128.Transposes [1, 0] S128x2
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S5000x2_S5000x2_0_0 : ∀ a, (![0, 0] : Fin 2 → Nat) a + S5000x2.size a ≤ S5000x2.size a
  h_S5000x2 : 0 < S5000x2.numel
  slices_S50000x2_S50000x1_0_0 : S50000x2.Slices ![0, 0] S50000x1
  shapeCasts_S50000x1_S50000 : S50000x1.ShapeCasts S50000
  slices_S50000x2_S50000x1_0_1 : S50000x2.Slices ![0, 1] S50000x1
  bcast_S_S800000 : S_.BroadcastsInDim S800000 (![] : Fin 0 → Fin S800000.rank)
  bcast_S800000_S800000x1_0 : S800000.BroadcastsInDim S800000x1 (![0] : Fin 1 → Fin S800000x1.rank)
  dot_S5000x128_S128x2_S5000x2_1_0_0_1_n_n_wf : DotDims.WF S5000x128 S128x2 S5000x2 [1] [0] [0] [1] [] []
  gather_S50000_S800000x1_S800000_n_0_n_n_0_1_1_wf : GatherDims.WF S50000 S800000x1 S800000 [] [0] [] [0] [] 1 ![1]
  gather_S800000_S800000x1_S800000_n_0_n_n_0_1_1_wf : GatherDims.WF S800000 S800000x1 S800000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2.size a ≤ S128x2.size a
  hwx0_1 : ∀ i : grid0.Coords, EltTy.bits .f32 = 32 ∨ (Rect.block (s := S128x2) S128x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x2.size a ≤ S50000x2.size a
  hwx0_2 : ∀ i : grid0.Coords, EltTy.bits .f32 = 32 ∨ (Rect.block (s := S50000x2) S5000x2.size (cc0_transform_2 i) (hinb0_2 i)).WholeWords (EltTy.packing .f32)

variable [Facts₀]

def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S800000_S800000x1_S800000_n_0_n_n_0_1_1 : GatherDims S800000 S800000x1 S800000 where
  offsetDims := []
  collapsedSliceDims := [0]
  operandBatchingDims := []
  startIndicesBatchingDims := []
  startIndexMap := [0]
  indexVectorDim := 1
  sliceSizes := ![1]
  wf := gather_S800000_S800000x1_S800000_n_0_n_n_0_1_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x2.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x2.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x128 : Shape := ⟨2, ![50000, 128]⟩
abbrev S1x256 : Shape := ⟨2, ![1, 256]⟩
abbrev S2x800000 : Shape := ⟨2, ![2, 800000]⟩
abbrev S800000 : Shape := ⟨1, ![800000]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128x1 : Shape := ⟨2, ![128, 1]⟩

abbrev nBuf : Space → Nat
  | .hbm => 51
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1x256, .f32⟩
  | .hbm, ⟨2, _⟩ => ⟨S2x800000, .i32⟩
  | .hbm, ⟨3, _⟩ => ⟨S800000, .i32⟩
  | .hbm, ⟨4, _⟩ => ⟨S1x800000, .i32⟩
  | .hbm, ⟨5, _⟩ => ⟨S800000, .i32⟩
  | .hbm, ⟨6, _⟩ => ⟨S1x800000, .i32⟩
  | .hbm, ⟨7, _⟩ => ⟨S800000, .i32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S1x128, .f32⟩
  | .hbm, ⟨27, _⟩ => ⟨S128x1, .f32⟩
  | .hbm, ⟨28, _⟩ => ⟨S800000x1, .f32⟩
  | .hbm, ⟨29, _⟩ => ⟨S1x128, .f32⟩
  | .hbm, ⟨30, _⟩ => ⟨S128x1, .f32⟩
  | .hbm, ⟨31, _⟩ => ⟨S800000x1, .f32⟩
  | .hbm, ⟨32, _⟩ => ⟨S800000x1, .f32⟩
  | .hbm, ⟨33, _⟩ => ⟨S800000x1, .f32⟩
  | .hbm, ⟨34, _⟩ => ⟨S800000x1, .f32⟩
  | .hbm, ⟨35, _⟩ => ⟨S_, .f32⟩
  | .hbm, ⟨36, _⟩ => ⟨S800000x1, .f32⟩
  | .hbm, ⟨37, _⟩ => ⟨S800000x1, .f32⟩
  | .hbm, ⟨38, _⟩ => ⟨S_, .f32⟩
  | .hbm, ⟨39, _⟩ => ⟨S800000x1, .f32⟩
  | .hbm, ⟨40, _⟩ => ⟨S800000x1, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x1, .f32⟩
  | .hbm, ⟨50, _⟩ => ⟨S800000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S1x256_S1x128_0_0 : S1x256.Slices ![0, 0] S1x128
  transposes_S1x128_S128x1_1_0 : S1x128.Transposes [1, 0] S128x1
  slices_S1x256_S1x128_0_128 : S1x256.Slices ![0, 128] S1x128
  bcast_S_S800000x1 : S_.BroadcastsInDim S800000x1 (![] : Fin 0 → Fin S800000x1.rank)
  gather_S50000x128_S800000x1_S800000x128_1_0_n_n_0_1_1128_wf : GatherDims.WF S50000x128 S800000x1 S800000x128 [1] [0] [] [0] [] 1 ![1, 128]
  dot_S800000x128_S128x1_S800000x1_1_0_0_1_n_n_wf : DotDims.WF S800000x128 S128x1 S800000x1 [1] [0] [0] [1] [] []
  gather_S800000x1_S800000x1_S800000x1_1_0_n_n_0_1_11_wf : GatherDims.WF S800000x1 S800000x1 S800000x1 [1] [0] [] [0] [] 1 ![1, 1]

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def gather_S800000x1_S800000x1_S800000x1_1_0_n_n_0_1_11 : GatherDims S800000x1 S800000x1 S800000x1 where
  offsetDims := [1]
  collapsedSliceDims := [0]
  operandBatchingDims := []
  startIndicesBatchingDims := []
  startIndexMap := [0]
  indexVectorDim := 1
  sliceSizes := ![1, 1]
  wf := gather_S800000x1_S800000x1_S800000x1_1_0_n_n_0_1_11_wf

class Facts : Prop extends Facts₀ where

variable [Facts]
-- ==== Proof.LibGatherRows.lean ====
/-
  A gather of whole rows, read at an entry.  What `x[idx]` along the leading axis lowers to when the start indices are a
  column `[E, 1]`: the start index map names axis 0, axis 0 is collapsed, slice size 1 there and the full extent on every
  other axis.  Result row `e` is the operand's row at the word `idx[e, 0]`, read as a signed integer and clamped into
  `[0, N − 1]` (every start index is clamped so that the slice fits); the other coordinates pass through.
  Two forms: a flat operand `[N]` giving `[E]`, and a matrix operand `[N, D]` giving `[E, D]`.
-/
import Idealize.ShloMosaic.Lib.ValueIdx

noncomputable section

namespace Cert.LibGatherRows

open Idealize.ShloMosaic Idealize.ShloMosaic.ValueIdx

variable {α : Type}

/-- The row of an `N`-row array that a start-index word names: the word read signed, clamped into `[0, N − 1]`. -/
def rowOf (N : Nat) (hN : 0 < N) {w : Nat} (v : BitVec w) : Fin N := ⟨min v.toInt.toNat (N - 1), by omega⟩

/-- The dimension numbers of a row gather from a flat operand `[N]` at a column of start indices `[E, 1]`. -/
abbrev flatDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A flat operand gathered at a column of start indices: entry `e` is the operand at the row `idx[e, 0]` names. -/
theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatDims N E wf) x idx (ix1 e) = x (ix1 (rowOf N hN (idx (ix2 e (0 : Fin 1))))) := by
  unfold Host.gather
  congr 1
  funext a
  obtain rfl : a = 0 := Subsingleton.elim _ _
  refine Fin.ext ?_
  show (flatDims N E wf).start (ix1 e) idx 0 + (flatDims N E wf).batchCoord (ix1 e) 0 + (flatDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N E wf).startIndexMap from List.mem_singleton.mpr rfl)]
  have hsi : (flatDims N E wf).siIdx (ix1 e) ⟨List.idxOf (0 : Fin 1) (flatDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of a row gather from a matrix `[N, D]` at a column of start indices `[E, 1]`: whole rows. -/
abbrev matDims (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A matrix gathered row by row at a column of start indices: entry `(e, k)` is the operand at `(row, k)`, the row
    the one `idx[e, 0]` names. -/
theorem gather_mat_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (matDims N D E wf) x idx (ix2 e k) = x (ix2 (rowOf N hN (idx (ix2 e (0 : Fin 1)))) k) := by
  unfold Host.gather
  congr 1
  funext a
  refine Fin.ext ?_
  match a with
  | ⟨0, _⟩ =>
    show (matDims N D E wf).start (ix2 e k) idx 0 + (matDims N D E wf).batchCoord (ix2 e k) 0 + (matDims N D E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (matDims N D E wf).startIndexMap from List.mem_singleton.mpr rfl)]
    have hsi : (matDims N D E wf).siIdx (ix2 e k) ⟨List.idxOf (0 : Fin 2) (matDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (matDims N D E wf).start (ix2 e k) idx 1 + (matDims N D E wf).batchCoord (ix2 e k) 1 + (matDims N D E wf).offCoord (ix2 e k) 1 = k.val
    rw [GatherDims.batchCoord_eq_zero _ _ _ List.not_mem_nil]
    have hs : (matDims N D E wf).start (ix2 e k) idx 1 = 0 := by
      unfold GatherDims.start
      rw [dif_neg (show (1 : Fin 2) ∉ (matDims N D E wf).startIndexMap from fun h => absurd (congrArg Fin.val (List.mem_singleton.mp h)) Nat.one_ne_zero)]
    have hk : (1 : Fin 2) ∈ (matDims N D E wf).sKept :=
      (GatherDims.mem_sKept _ _).mpr ⟨fun h => absurd (congrArg Fin.val (List.mem_singleton.mp h)) Nat.one_ne_zero, List.not_mem_nil⟩
    have ho : (matDims N D E wf).offCoord (ix2 e k) 1 = k.val := by
      unfold GatherDims.offCoord
      rw [dif_pos hk]
      rfl
    rw [hs, ho]; omega

end Cert.LibGatherRows

end
-- ==== Proof.EdgeSpec.lean ====
/-
  The function both programs compute, entry by entry, on the extended reals.

  Inputs: node features `x : [50000, 128]`, one weight row `W : [1, 256]` (its first 128 entries score an edge's source
  node, its last 128 the destination node), and three columns of 800000 start-index words: the source node of each edge,
  the destination node of each edge, and for each edge the edge it is paired with.  A word names a row by being read as a
  signed integer and clamped into the array (`rowOf`).

  For edge `e`:  logit(e) = Σ_k x[src e, k]·W[0, k] + Σ_k x[dst e, k]·W[0, 128 + k],
                 activation(e)  = 1 / (1 + exp(−logit(e))),
                 out[e, 0] = activation(e) · activation(pair e).
  The two sums are kept as written (128 terms each, in order): nothing is regrouped, so no finiteness is needed.
-/
import Idealize.ShloMosaic.PureOps.Ideal
import Idealize.ShloMosaic.Lib.ValueIdx
import proofs.«157183_j31842887533249_1_alg».proof.Proof.LibGatherRows

noncomputable section

namespace Cert.EdgeSpec

open Idealize.ShloMosaic Idealize.ShloMosaic.ValueIdx Cert.LibGatherRows

/-- Node features. -/
abbrev SX : Shape := ⟨2, ![50000, 128]⟩
/-- The weight row. -/
abbrev SW : Shape := ⟨2, ![1, 256]⟩
/-- A column of one word (or one value) per edge. -/
abbrev SCol : Shape := ⟨2, ![800000, 1]⟩

/-- Node `n`'s features against the first half of the weight row. -/
def srcScore (x : SX.Idx → EReal) (W : SW.Idx → EReal) (n : Fin 50000) : EReal :=
  ∑ k : Fin 128, x (ix2 n k) * W (ix2 (0 : Fin 1) (⟨k.val, by omega⟩ : Fin 256))

/-- Node `n`'s features against the second half of the weight row. -/
def dstScore (x : SX.Idx → EReal) (W : SW.Idx → EReal) (n : Fin 50000) : EReal :=
  ∑ k : Fin 128, x (ix2 n k) * W (ix2 (0 : Fin 1) (⟨128 + k.val, by omega⟩ : Fin 256))

/-- The logistic function as both programs spell it: one over one plus the exponential of the negation. -/
def activation (z : EReal) : EReal :=
  FloatOps.hostDivf (F := Ideal) (φ := .f32) (FloatOps.ofBits .f32 0x3F800000#32)
    (FloatOps.addf (FloatOps.ofBits .f32 0x3F800000#32) (FloatOps.hostUnary .exp (FloatOps.hostNegf z)))

/-- Edge `e`'s activation: the logistic of its source node's score plus its destination node's score. -/
def edgeActivation (x : SX.Idx → EReal) (W : SW.Idx → EReal) (src dst : IVec SCol 32) (e : Fin 800000) : EReal :=
  activation (FloatOps.addf (F := Ideal) (φ := .f32)
    (srcScore x W (rowOf 50000 (by decide) (src (ix2 e (0 : Fin 1)))))
    (dstScore x W (rowOf 50000 (by decide) (dst (ix2 e (0 : Fin 1))))))

/-- The result column: each edge's activation times the activation of the edge it is paired with. -/
def edgeWeight (x : SX.Idx → EReal) (W : SW.Idx → EReal) (src dst pair : IVec SCol 32) : SCol.Idx → EReal := fun i =>
  FloatOps.mulf (F := Ideal) (φ := .f32) (edgeActivation x W src dst (i 0))
    (edgeActivation x W src dst (rowOf 800000 (by decide) (pair (ix2 (i 0) (0 : Fin 1)))))

theorem edgeWeight_apply (x : SX.Idx → EReal) (W : SW.Idx → EReal) (src dst pair : IVec SCol 32) (e : Fin 800000) :
    edgeWeight x W src dst pair (ix2 e (0 : Fin 1)) = FloatOps.mulf (F := Ideal) (φ := .f32) (edgeActivation x W src dst e)
      (edgeActivation x W src dst (rowOf 800000 (by decide) (pair (ix2 e (0 : Fin 1))))) := rfl

/-- Every index of a one-wide column is `(e, 0)`. -/
theorem col_idx (i : SCol.Idx) : ∃ e : Fin 800000, i = ix2 e (0 : Fin 1) :=
  ⟨i 0, (eq_ix2 i).trans (congrArg (ix2 (n0 := 800000) (n1 := 1) (i 0)) (Fin.ext (show (i 1).val = 0 by have := idx2_lt1 i; omega)))⟩

end Cert.EdgeSpec

end
-- ==== Proof.RefIsSpec.lean ====
/-
  The reference computes the specification.  Read entry by entry: a row gather of `x` followed by a product with one
  half of the weight row (transposed to a column) is that node's score; the two scores are added and passed through the
  logistic function; the last gather reads the activation of the paired edge; the result is the product of the two activations.
  The three columns of start-index words (negative indices wrapped once by the array's extent) are kept as the
  reference computes them and are not opened.
-/
import proofs.«157183_j31842887533249_1_alg».proof.Proof.Gen.ReferenceIdeal.Read
import proofs.«157183_j31842887533249_1_alg».proof.Proof.EdgeSpec

noncomputable section

namespace Cert.RefIsSpec

open Idealize.ShloMosaic Idealize.ShloMosaic.ValueIdx Cert.LibGatherRows Cert.EdgeSpec
open Cert.ReferenceIdeal Cert.ReferenceIdeal.Read

variable (x0 : (⟨S50000x128, .f32⟩ : BufTy).Contents (Elt Ideal)) (x1 : (⟨S1x256, .f32⟩ : BufTy).Contents (Elt Ideal))
  (x2 : (⟨S2x800000, .i32⟩ : BufTy).Contents (Elt Ideal)) (x3 : (⟨S800000, .i32⟩ : BufTy).Contents (Elt Ideal))

/-- The gathered source rows against the first half of the weight row: the source node's score. -/
theorem src_score (e : Fin 800000) :
    val_main_v20 (F := Ideal) x0 x1 x2 (ix2 e (0 : Fin 1))
      = srcScore x0 x1 (rowOf 50000 (by decide) (val_main_v9 (F := Ideal) x2 (ix2 e (0 : Fin 1)))) := by
  rw [val_main_v20_apply]
  unfold srcScore
  refine Finset.sum_congr rfl fun k _ => ?_
  have hl : lidx_main_v20 (ix2 e (0 : Fin 1)) k = ix2 e k :=
    funext fun a => Fin.ext (by match a with | ⟨0, _⟩ => rfl | ⟨1, _⟩ => rfl)
  have hg : val_main_v10 (F := Ideal) x0 x2 (ix2 e k)
      = x0 (ix2 (rowOf 50000 (by decide) (val_main_v9 (F := Ideal) x2 (ix2 e (0 : Fin 1)))) k) :=
    gather_mat_apply (by decide) Facts₀.gather_S50000x128_S800000x1_S800000x128_1_0_n_n_0_1_1128_wf x0 _ e k
  have hw : val_main_v19 (F := Ideal) x1 (ridx_main_v20 (ix2 e (0 : Fin 1)) k) = x1 (ix2 (0 : Fin 1) (⟨k.val, by omega⟩ : Fin 256)) := by
    rw [val_main_v19_apply, val_main_v18_apply]
    exact congrArg x1 (funext fun a => Fin.ext (by match a with | ⟨0, _⟩ => rfl | ⟨1, _⟩ => rfl))
  rw [hl, hg, hw]

/-- The gathered destination rows against the second half of the weight row: the destination node's score. -/
theorem dst_score (e : Fin 800000) :
    val_main_v23 (F := Ideal) x0 x1 x2 (ix2 e (0 : Fin 1))
      = dstScore x0 x1 (rowOf 50000 (by decide) (val_main_v16 (F := Ideal) x2 (ix2 e (0 : Fin 1)))) := by
  rw [val_main_v23_apply]
  unfold dstScore
  refine Finset.sum_congr rfl fun k _ => ?_
  have hl : lidx_main_v23 (ix2 e (0 : Fin 1)) k = ix2 e k :=
    funext fun a => Fin.ext (by match a with | ⟨0, _⟩ => rfl | ⟨1, _⟩ => rfl)
  have hg : val_main_v17 (F := Ideal) x0 x2 (ix2 e k)
      = x0 (ix2 (rowOf 50000 (by decide) (val_main_v16 (F := Ideal) x2 (ix2 e (0 : Fin 1)))) k) :=
    gather_mat_apply (by decide) Facts₀.gather_S50000x128_S800000x1_S800000x128_1_0_n_n_0_1_1128_wf x0 _ e k
  have hw : val_main_v22 (F := Ideal) x1 (ridx_main_v23 (ix2 e (0 : Fin 1)) k) = x1 (ix2 (0 : Fin 1) (⟨128 + k.val, by omega⟩ : Fin 256)) := by
    rw [val_main_v22_apply, val_main_v21_apply]
    exact congrArg x1 (funext fun a => Fin.ext (by match a with | ⟨0, _⟩ => rfl | ⟨1, _⟩ => rfl))
  rw [hl, hg, hw]

/-- The logistic of the two scores' sum: the edge's activation. -/
theorem activation_eq (e : Fin 800000) :
    val_main_v30 (F := Ideal) x0 x1 x2 (ix2 e (0 : Fin 1))
      = edgeActivation x0 x1 (val_main_v9 (F := Ideal) x2) (val_main_v16 (F := Ideal) x2) e := by
  rw [val_main_v30_apply, val_main_v29_apply, val_main_cst_3_apply, val_main_v28_apply, val_main_v27_apply, val_main_cst_apply,
    val_main_v26_apply, val_main_v25_apply, val_main_v24_apply, src_score, dst_score]
  rfl

/-- The reference's result is the specification's column. -/
theorem ref_eq :
    val_main_v38 (F := Ideal) x0 x1 x2 x3
      = edgeWeight x0 x1 (val_main_v9 (F := Ideal) x2) (val_main_v16 (F := Ideal) x2) (val_main_v36 (F := Ideal) x3) := by
  funext i
  obtain ⟨e, rfl⟩ := col_idx i
  rw [val_main_v38_apply, edgeWeight_apply, activation_eq]
  have hg : val_main_v37 (F := Ideal) x0 x1 x2 x3 (ix2 e (0 : Fin 1))
      = val_main_v30 (F := Ideal) x0 x1 x2 (ix2 (rowOf 800000 (by decide) (val_main_v36 (F := Ideal) x3 (ix2 e (0 : Fin 1)))) (0 : Fin 1)) :=
    gather_mat_apply (by decide) Facts₀.gather_S800000x1_S800000x1_S800000x1_1_0_n_n_0_1_11_wf _ _ e (0 : Fin 1)
  rw [hg, activation_eq]

end Cert.RefIsSpec

end
-- ==== Proof.HostSide.lean ====
/-
  The host lines around the kernel's region, as functions.

  Before the region: the weight row's two halves are stacked and transposed into the 128 × 2 weight matrix, and the two
  rows of the edge list are flattened.  After the region: the two columns of the scores array are flattened; each list of
  indices is wrapped (a negative index has the array's extent added once) and made a column of start-index words; the
  source and destination scores are gathered and added, passed through the logistic function, the paired edge's activation is
  gathered, and the two activations are multiplied into the result column.
-/
import proofs.«157183_j31842887533249_1_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.HostSide

open Idealize.ShloMosaic Idealize.ShloMosaic.TcCoe Idealize.ShloMosaic.ValueIdx Idealize.SL.Sem Idealize.ShloMosaic.StableHlo
open Cert.KernelIdeal Cert.KernelIdeal.Gen

/-! ## The functions -/

/-- The weight matrix the region is given: the two halves of the weight row stacked, then transposed. -/
def weightsT (W : S1x256.Idx → EReal) : S128x2.Idx → EReal :=
  transpose S128x2 [1, 0]
    (concatenate S2x128 0 [⟨S1x128, extractStridedSlice S1x128 ![0, 0] W slices_S1x256_S1x128_0_0⟩,
      ⟨S1x128, extractStridedSlice S1x128 ![0, 128] W slices_S1x256_S1x128_0_128⟩] concatenates_S1x128_S1x128_S2x128_d0)
    transposes_S2x128_S128x2_1_0

/-- Row 0 of the edge list, flat. -/
def edgeRow0 (ei : IVec S2x800000 32) : IVec S800000 32 :=
  shapeCast S800000 (extractStridedSlice S1x800000 ![0, 0] ei slices_S2x800000_S1x800000_0_0) shapeCasts_S1x800000_S800000
/-- Row 1 of the edge list, flat. -/
def edgeRow1 (ei : IVec S2x800000 32) : IVec S800000 32 :=
  shapeCast S800000 (extractStridedSlice S1x800000 ![1, 0] ei slices_S2x800000_S1x800000_1_0) shapeCasts_S1x800000_S800000

/-- A flat list of indices into an array of n rows as a column of start-index words: a negative index has n added once. -/
def wrapCol (n : BitVec 32) (v : IVec S800000 32) : IVec S800000x1 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 n))) v)

/-- Column 0 of the scores array, flat. -/
def scoreCol0 (ab : S50000x2.Idx → EReal) : S50000.Idx → EReal :=
  shapeCast S50000 (extractStridedSlice S50000x1 ![0, 0] ab slices_S50000x2_S50000x1_0_0) shapeCasts_S50000x1_S50000
/-- Column 1 of the scores array, flat. -/
def scoreCol1 (ab : S50000x2.Idx → EReal) : S50000.Idx → EReal :=
  shapeCast S50000 (extractStridedSlice S50000x1 ![0, 1] ab slices_S50000x2_S50000x1_0_1) shapeCasts_S50000x1_S50000

/-- Every edge's activation: the logistic of the gathered source score plus the gathered destination score. -/
def activations (ab : S50000x2.Idx → EReal) (src dst : IVec S800000x1 32) : S800000.Idx → EReal :=
  Host.divf (F := Ideal) (broadcastInDim S800000 ![] bcast_S_S800000 (constant (F := Ideal) S_ .f32 0x3F800000#32))
    (addf (F := Ideal) (φ := .f32) (broadcastInDim S800000 ![] bcast_S_S800000 (constant (F := Ideal) S_ .f32 0x3F800000#32))
      (Host.exp (F := Ideal) (Host.negf (F := Ideal) (addf (F := Ideal) (φ := .f32)
        (Host.gather gather_S50000_S800000x1_S800000_n_0_n_n_0_1_1 (scoreCol0 ab) src)
        (Host.gather gather_S50000_S800000x1_S800000_n_0_n_n_0_1_1 (scoreCol1 ab) dst)))))

/-- The result column: each edge's activation times the gathered activation of its paired edge. -/
def tailOut (ab : S50000x2.Idx → EReal) (src dst pair : IVec S800000x1 32) : S800000x1.Idx → EReal :=
  broadcastInDim S800000x1 ![0] bcast_S800000_S800000x1_0
    (mulf (F := Ideal) (φ := .f32) (activations ab src dst) (Host.gather gather_S800000_S800000x1_S800000_n_0_n_n_0_1_1 (activations ab src dst) pair))

/-! ## The host lines before the region -/

variable (m : (ℓ : Loc nD τ sig) → Buf (Elt Ideal) ℓ)

/-- The region finds the weight matrix built from the launched weight row. -/
theorem V_weights (c : Dev nD) : (V m c main_v7 : S128x2.Idx → EReal) = weightsT (m ((c : Thread nD τ).loc main_arg1)) := by
  show StableHlo.after hostOps0 (fun b => m (c, b)) (Proc.devRef .tc main_v7) = _
  after_results; rfl

/-- It finds row 0 of the launched edge list, flat, -/
theorem V_row0 (c : Dev nD) : (V m c main_v1 : S800000.Idx → BitVec 32) = edgeRow0 (m ((c : Thread nD τ).loc main_arg2)) := by
  show StableHlo.after hostOps0 (fun b => m (c, b)) (Proc.devRef .tc main_v1) = _
  after_results; rfl

/-- and row 1. -/
theorem V_row1 (c : Dev nD) : (V m c main_v3 : S800000.Idx → BitVec 32) = edgeRow1 (m ((c : Thread nD τ).loc main_arg2)) := by
  show StableHlo.after hostOps0 (fun b => m (c, b)) (Proc.devRef .tc main_v3) = _
  after_results; rfl

/-! ## The host lines after the region -/

/-- From any buffer contents, the lines after the region leave the result buffer at `tailOut` of the scores array, the two
    flat edge rows and the pairing list found there. -/
theorem tail_after (Vv : Valuation τ sig (Elt Ideal)) :
    StableHlo.after hostOps1 Vv (Proc.devRef .tc main_v42)
      = tailOut (Vv (Proc.devRef .tc main_v8)) (wrapCol 50000#32 (Vv (Proc.devRef .tc main_v1)))
          (wrapCol 50000#32 (Vv (Proc.devRef .tc main_v3))) (wrapCol 800000#32 (Vv (Proc.devRef .tc main_arg3))) := by
  after_results_simp
  rfl

end Cert.KernelIdeal.HostSide

end
-- ==== Proof.LibPlainDot.lean ====
/-
  A plain matrix product read at an entry.  For dimension numbers that contract the left operand's second axis with the
  right operand's first (no batch axes), the product of an M × K by a K × N array at entry (r, c) is the sum over
  k < K of left(r, k) · right(k, c) — for the kernel's product into a zero accumulator and for the host's product
  alike.  The contraction index of the dimension numbers is a one-coordinate tuple; the sum is re-indexed by that
  coordinate.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}
  (D : DotDims (⟨2, ![M, K]⟩ : Shape) (⟨2, ![K, N]⟩ : Shape) (⟨2, ![M, N]⟩ : Shape))
  (hrank : D.contr.rank = 1) (hsize : D.contr.size ⟨0, by omega⟩ = K)
  (hlc : D.lhsContracting = [1]) (hrc : D.rhsContracting = [0])
  (hL0 : ∀ j k, (D.lhsIdx j k 0).val = (j 0).val) (hR1 : ∀ j k, (D.rhsIdx j k 1).val = (j 1).val)

include hlc hL0 in
/-- The left operand's index at output (r, c) and contraction coordinate k is (r, k). -/
theorem lhsIdx_eq (r : Fin M) (c : Fin N) (k : Fin K) :
    D.lhsIdx (ix2 r c) ((contrEquiv1 D K hrank hsize).symm k) = ix2 r k := by
  funext a; apply Fin.ext
  match a with
  | ⟨0, _⟩ => exact hL0 _ _
  | ⟨1, _⟩ => exact (D.lhsIdx_val_of_single hlc _ _).trans (contrEquiv1_symm_val D K hrank hsize k)

include hrc hR1 in
/-- The right operand's index there is (k, c). -/
theorem rhsIdx_eq (r : Fin M) (c : Fin N) (k : Fin K) :
    D.rhsIdx (ix2 r c) ((contrEquiv1 D K hrank hsize).symm k) = ix2 k c := by
  funext a; apply Fin.ext
  match a with
  | ⟨0, _⟩ => exact (D.rhsIdx_val_of_single hrc _ _).trans (contrEquiv1_symm_val D K hrank hsize k)
  | ⟨1, _⟩ => exact hR1 _ _

include hrank hsize hlc hrc hL0 hR1 in
/-- The sum over the contraction index is the sum over k < K of the two operands at (r, k) and (k, c). -/
theorem sum_contr (lhs : FVec Ideal (⟨2, ![M, K]⟩ : Shape) φ₁) (rhs : FVec Ideal (⟨2, ![K, N]⟩ : Shape) φ₂) (r : Fin M) (c : Fin N) :
    (∑ q : D.contr.Idx, lhs (D.lhsIdx (ix2 r c) q) * rhs (D.rhsIdx (ix2 r c) q)) = ∑ k : Fin K, lhs (ix2 r k) * rhs (ix2 k c) := by
  rw [← Equiv.sum_comp (contrEquiv1 D K hrank hsize).symm]
  refine Finset.sum_congr rfl fun k _ => ?_
  rw [lhsIdx_eq D hrank hsize hlc hL0 r c k, rhsIdx_eq D hrank hsize hrc hR1 r c k]

include hrank hsize hlc hrc hL0 hR1 in
/-- The kernel's product into the zero accumulator, at an entry. -/
theorem matmul_zero_apply (prec : Option ContractPrecision) (lhs : FVec Ideal (⟨2, ![M, K]⟩ : Shape) φ₁)
    (rhs : FVec Ideal (⟨2, ![K, N]⟩ : Shape) φ₂) (r : Fin M) (c : Fin N) :
    FloatOps.matmul D prec lhs rhs (constant (⟨2, ![M, N]⟩ : Shape) .f32 0x00000000#32) (ix2 r c)
      = ∑ k : Fin K, lhs (ix2 r k) * rhs (ix2 k c) :=
  (Ideal.matmul_constant_zero_apply D prec lhs rhs (ix2 r c)).trans (sum_contr D hrank hsize hlc hrc hL0 hR1 lhs rhs r c)

include hrank hsize hlc hrc hL0 hR1 in
/-- The host's product, at an entry, whatever its schedule. -/
theorem dotGeneral_apply (prec : Option ContractPrecision) (sched : HostSchedule) (lhs : FVec Ideal (⟨2, ![M, K]⟩ : Shape) φ₁)
    (rhs : FVec Ideal (⟨2, ![K, N]⟩ : Shape) φ₂) (r : Fin M) (c : Fin N) :
    FloatOps.dotGeneral D prec sched lhs rhs (ix2 r c) = ∑ k : Fin K, lhs (ix2 r k) * rhs (ix2 k c) :=
  (Ideal.dotGeneral_apply D prec sched lhs rhs (ix2 r c)).trans (sum_contr D hrank hsize hlc hrc hL0 hR1 lhs rhs r c)

end Cert.LibPlainDot

end
-- ==== Proof.NodeScores.lean ====
/-
  What the kernel's region leaves in its output array: every node's two scores.

  The body multiplies its block of 5000 node rows by the whole 128 × 2 weight matrix (a product into a zero accumulator;
  the changes of float format are the identity on the extended reals), so the block's entry (r, c) is the sum over k of
  block(r, k) · weights(k, c).  Grid point t holds rows 5000·t … 5000·t + 4999 of the features and writes the same rows
  of the output; the ten blocks tile the 50000 rows, so the array ends as
      scores[n, c] = Σ_k x[n, k] · wT[k, c]
  of the feature array and the weight matrix as the region finds them.
-/
import proofs.«157183_j31842887533249_1_alg».proof.Proof.Gen.KernelIdeal.Frame
import proofs.«157183_j31842887533249_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.NodeScores

open Idealize.ShloMosaic Idealize.ShloMosaic.TcCoe Idealize.ShloMosaic.ValueIdx Idealize.SL.Sem
open Idealize.ShloMosaic.Pipeline (Dat)
open Cert.KernelIdeal Cert.KernelIdeal.Gen

/-- Every node's two scores: row n of the features against column c of the weight matrix. -/
def scores (x : S50000x128.Idx → EReal) (wT : S128x2.Idx → EReal) : S50000x2.Idx → EReal :=
  fun i => ∑ k : Fin 128, x (ix2 (i 0) k) * wT (ix2 k (i 1))

/-! ## The body's product at an entry -/

/-- The body's product: rows of the block against columns of the weights, contracting the 128 features. -/
abbrev DD : DotDims S5000x128 S128x2 S5000x2 := dot_S5000x128_S128x2_S5000x2_1_0_0_1_n_n

theorem lhs_row (i : S5000x2.Idx) (q : DD.contr.Idx) : (DD.lhsIdx i q 0).val = (i 0).val := by
  unfold DotDims.lhsIdx
  rw [dif_neg (show ¬(0 : Fin S5000x128.rank) ∈ DD.lhsBatch by decide), dif_pos (show (0 : Fin S5000x128.rank) ∈ DD.lhsNonContracting by decide)]
  rfl

theorem rhs_col (i : S5000x2.Idx) (q : DD.contr.Idx) : (DD.rhsIdx i q 1).val = (i 1).val := by
  unfold DotDims.rhsIdx
  rw [dif_neg (show ¬(1 : Fin S128x2.rank) ∈ DD.rhsBatch by decide), dif_pos (show (1 : Fin S128x2.rank) ∈ DD.rhsNonContracting by decide)]
  rfl

/-- The stored value at entry (r, c) of the block: the 128-term sum of row r of the loaded features against column c of
    the loaded weights. -/
theorem pay_apply (x0 : Vec Ideal S5000x128 .f32) (x1 : Vec Ideal S128x2 .f32) (r : Fin 5000) (c : Fin 2) :
    k0_pay1 (F := Ideal) x0 x1 (ix2 r c) = ∑ k : Fin 128, x0 (ix2 r k) * x1 (ix2 k c) := by
  unfold k0_pay1
  rw [shapeCast_self]
  refine (Cert.LibPlainDot.matmul_zero_apply DD rfl rfl rfl rfl lhs_row rhs_col none _ _ r c).trans ?_
  rfl

/-- The same at any index of the block. -/
theorem pay_at (x0 : Vec Ideal S5000x128 .f32) (x1 : Vec Ideal S128x2 .f32) (y : S5000x2.Idx) :
    k0_pay1 (F := Ideal) x0 x1 y = ∑ k : Fin 128, x0 (ix2 (y 0) k) * x1 (ix2 k (y 1)) := by
  obtain ⟨r, c, rfl⟩ : ∃ (r : Fin 5000) (c : Fin 2), y = ix2 r c := ⟨y 0, y 1, eq_ix2 y⟩
  exact pay_apply x0 x1 r c

/-! ## From blocks to the array -/

variable (m : (ℓ : Loc nD τ sig) → Buf (Elt Ideal) ℓ)

theorem offs_zero : (![0, 0] : Fin 2 → Nat) = fun _ => 0 := funext fun a => by fin_cases a <;> rfl

/-- Where each window's block sits at grid point t: the feature block and the output block at row block t, the weight
    matrix whole. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r, feature k of grid point t's feature block is the feature array at row 5000·t + r. -/
theorem feat_block (c : Dev nD) (t : Fin cfg0.N) (r : Fin 5000) (k : Fin 128) (i : S50000x128.Idx)
    (h0 : (i 0).val = t.val * 5000 + r.val) (h1 : (i 1).val = k.val) :
    iblk m c 0 t (ix2 r k) = V m c main_arg0 i := by
  obtain ⟨e0, e1, -, -, -, -⟩ := block_index t
  show V m c main_arg0 (((cfg0.win 0).blk t).view.emb (ix2 r k)) = V m c main_arg0 i
  refine congrArg _ (funext fun a => Fin.ext ?_)
  match a with
  | ⟨0, _⟩ => show win0_0.index t (0 : Fin 2) * 5000 + 1 * r.val = (i 0).val; omega
  | ⟨1, _⟩ => show win0_0.index t (1 : Fin 2) * 128 + 1 * k.val = (i 1).val; omega

/-- The weight block is the whole weight matrix at every grid point. -/
theorem weight_block (c : Dev nD) (t : Fin cfg0.N) (k : Fin 128) (j : Fin 2) :
    iblk m c 1 t (ix2 k j) = V m c main_v7 (ix2 k j) := by
  obtain ⟨-, -, e2, e3, -, -⟩ := block_index t
  show V m c main_v7 (((cfg0.win 1).blk t).view.emb (ix2 k j)) = V m c main_v7 (ix2 k j)
  refine congrArg _ (funext fun a => Fin.ext ?_)
  match a with
  | ⟨0, _⟩ => show win0_1.index t (0 : Fin 2) * 128 + 1 * k.val = k.val; omega
  | ⟨1, _⟩ => show win0_1.index t (1 : Fin 2) * 2 + 1 * j.val = j.val; omega

/-- What grid point t writes back is block t of the scores of the arrays as the region finds them. -/
theorem flushed_eq (c : Dev nD) (t : Fin cfg0.N) :
    (dats m 0 c).flushed 2 t = ((cfg0.win 2).blk t).view.read (Elt Ideal) (scores (V m c main_arg0) (V m c main_v7)) := by
  show (cfg0.win 2).cut (grid0.coords t) ((dats m 0 c).after 2 t) = _
  rw [after0_2]
  unfold out0_2
  rw [View.canon_unit_zero offs_zero]
  simp only [View.ld_unit_zero (S := S5000x128) offs_zero, View.ld_unit_zero (S := S128x2) offs_zero]
  obtain ⟨-, -, -, -, e4, e5⟩ := block_index t
  funext y
  obtain ⟨r, j, rfl⟩ : ∃ (r : Fin 5000) (j : Fin 2), y = ix2 r j := ⟨y 0, y 1, eq_ix2 y⟩
  refine (pay_apply (iblk m c 0 t) (iblk m c 1 t) r j).trans ?_
  show _ = scores (V m c main_arg0) (V m c main_v7) (((cfg0.win 2).blk t).view.emb (ix2 r j))
  unfold scores
  refine Finset.sum_congr rfl fun k _ => ?_
  have hr : ((((cfg0.win 2).blk t).view.emb (ix2 r j)) 0).val = t.val * 5000 + r.val := by
    show win0_2.index t (0 : Fin 2) * 5000 + 1 * r.val = _; omega
  have hj : ((((cfg0.win 2).blk t).view.emb (ix2 r j)) 1) = j := Fin.ext (by
    show win0_2.index t (1 : Fin 2) * 2 + 1 * j.val = j.val; omega)
  rw [feat_block m c t r k (ix2 ((((cfg0.win 2).blk t).view.emb (ix2 r j)) 0) k) hr rfl, weight_block m c t k j, hj]

/-- An index of the output array is in grid point t's block iff each coordinate is in the block's range. -/
theorem mem_block (t : Fin cfg0.N) (i : S50000x2.Idx) :
    i ∈ ((cfg0.win 2).blk t).view.set ↔ ∀ a : Fin 2, win0_2.index t a * S5000x2.size a ≤ (i a).val ∧ (i a).val < win0_2.index t a * S5000x2.size a + S5000x2.size a := by
  show i ∈ ((View.whole main_v8).slice (win0_2.rect t)).set ↔ _
  rw [View.set_slice_whole, Rect.mem_set_unit]
  exact Iff.rfl

/-- Row n of the output lies in the block of grid point n / 5000. -/
theorem covered (i : S50000x2.Idx) :
    ∃ t : Fin cfg0.N, (cfg0.win 2).flush t = true ∧ i ∈ ((cfg0.win 2).blk t).view.set := by
  have hi0 : (i 0).val < 50000 := idx2_lt0 i
  have hi1 : (i 1).val < 2 := idx2_lt1 i
  have hN : (i 0).val / 5000 < cfg0.N := by show _ < grid0.N; rw [N_0]; omega
  obtain ⟨-, -, -, -, e4, e5⟩ := block_index ⟨(i 0).val / 5000, hN⟩
  refine ⟨⟨(i 0).val / 5000, hN⟩, flush0_2 _, ?_⟩
  rw [mem_block]
  intro a
  match a with
  | ⟨0, _⟩ =>
    show win0_2.index ⟨(i 0).val / 5000, hN⟩ (0 : Fin 2) * 5000 ≤ (i 0).val ∧ (i 0).val < win0_2.index ⟨(i 0).val / 5000, hN⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, hN⟩ (1 : Fin 2) * 2 ≤ (i 1).val ∧ (i 1).val < win0_2.index ⟨(i 0).val / 5000, hN⟩ (1 : Fin 2) * 2 + 2
    omega

/-- The output array after the region: every node's two scores. -/
theorem final (c : Dev nD) : (dats m 0 c).arrAt 2 cfg0.N = scores (V m c main_arg0) (V m c main_v7) :=
  (dats m 0 c).arrAt_eq_of_cover 2 (scores (V m c main_arg0) (V m c main_v7)) (fun t _ => flushed_eq m c t) covered

end Cert.KernelIdeal.NodeScores

end
-- ==== Proof.KernelIsSpec.lean ====
/-
  The kernel's host lines, applied to the scores array the region leaves, compute the specification.  Read entry by entry:
  the weight matrix's two columns are the two halves of the weight row, so a node's two scores are its source score and
  its destination score; the flat score columns gathered at an edge's two start-index words and added give the edge's
  logit; the logistic function gives its activation; the last gather reads the paired edge's activation; the result is their product.
-/
import proofs.«157183_j31842887533249_1_alg».proof.Proof.HostSide
import proofs.«157183_j31842887533249_1_alg».proof.Proof.NodeScores
import proofs.«157183_j31842887533249_1_alg».proof.Proof.EdgeSpec

set_option maxRecDepth 16384

noncomputable section

namespace Cert.KernelIsSpec

open Idealize.ShloMosaic Idealize.ShloMosaic.ValueIdx Cert.LibGatherRows Cert.EdgeSpec
open Cert.KernelIdeal Cert.KernelIdeal.Gen Cert.KernelIdeal.HostSide Cert.KernelIdeal.NodeScores

/-! ## The weight matrix and the scores -/

/-- Column 0 of the weight matrix is the first half of the weight row. -/
theorem weightsT_src (W : S1x256.Idx → EReal) (k : Fin 128) :
    weightsT W (ix2 k (0 : Fin 2)) = W (ix2 (0 : Fin 1) (⟨k.val, by omega⟩ : Fin 256)) := by
  unfold weightsT
  refine (transpose_apply [1, 0] _ transposes_S2x128_S128x2_1_0 (ix2 k (0 : Fin 2)) (ix2 (0 : Fin 2) k)
    (fun b => match b with | ⟨0, _⟩ => rfl | ⟨1, _⟩ => rfl)).trans ?_
  refine (concatenate_pair_apply_left (t := S2x128) (s₁ := S1x128) (s₂ := S1x128) (0 : Fin 2) _ _ concatenates_S1x128_S1x128_S2x128_d0 (ix2 (0 : Fin 2) k) rfl (ix2 (n0 := 1) (n1 := 128) (0 : Fin 1) k)
    (fun b => match b with | ⟨0, _⟩ => rfl | ⟨1, _⟩ => rfl)).trans ?_
  exact extractStridedSlice_apply ![0, 0] W slices_S1x256_S1x128_0_0 (ix2 (0 : Fin 1) k) _
    (fun a => match a with | ⟨0, _⟩ => rfl | ⟨1, _⟩ => by show k.val = 0 + k.val; omega)

/-- Column 1 of the weight matrix is the second half of the weight row. -/
theorem weightsT_dst (W : S1x256.Idx → EReal) (k : Fin 128) :
    weightsT W (ix2 k (1 : Fin 2)) = W (ix2 (0 : Fin 1) (⟨128 + k.val, by omega⟩ : Fin 256)) := by
  unfold weightsT
  refine (transpose_apply [1, 0] _ transposes_S2x128_S128x2_1_0 (ix2 k (1 : Fin 2)) (ix2 (1 : Fin 2) k)
    (fun b => match b with | ⟨0, _⟩ => rfl | ⟨1, _⟩ => rfl)).trans ?_
  refine (concatenate_pair_apply_right (t := S2x128) (s₁ := S1x128) (s₂ := S1x128) (0 : Fin 2) _ _ concatenates_S1x128_S1x128_S2x128_d0 (ix2 (1 : Fin 2) k) rfl rfl (ix2 (n0 := 1) (n1 := 128) (0 : Fin 1) k)
    (fun b hb => match b, hb with | ⟨0, _⟩, hb => absurd rfl hb | ⟨1, _⟩, _ => rfl) rfl).trans ?_
  exact extractStridedSlice_apply ![0, 128] W slices_S1x256_S1x128_0_128 (ix2 (0 : Fin 1) k) _
    (fun a => match a with | ⟨0, _⟩ => rfl | ⟨1, _⟩ => by show 128 + k.val = 128 + k.val; rfl)

/-- A node's score in column 0 is its source score, -/
theorem scores_src (x : S50000x128.Idx → EReal) (W : S1x256.Idx → EReal) (n : Fin 50000) :
    scores x (weightsT W) (ix2 n (0 : Fin 2)) = srcScore x W n := by
  show (∑ k : Fin 128, x (ix2 n k) * weightsT W (ix2 k (0 : Fin 2))) = _
  unfold srcScore
  exact Finset.sum_congr rfl fun k _ => by rw [weightsT_src]

/-- and in column 1 its destination score. -/
theorem scores_dst (x : S50000x128.Idx → EReal) (W : S1x256.Idx → EReal) (n : Fin 50000) :
    scores x (weightsT W) (ix2 n (1 : Fin 2)) = dstScore x W n := by
  show (∑ k : Fin 128, x (ix2 n k) * weightsT W (ix2 k (1 : Fin 2))) = _
  unfold dstScore
  exact Finset.sum_congr rfl fun k _ => by rw [weightsT_dst]

/-! ## The lines after the region, at an entry -/

/-- The flat column 0 of the scores array at node n. -/
theorem scoreCol0_apply (ab : S50000x2.Idx → EReal) (n : Fin 50000) : scoreCol0 ab (ix1 n) = ab (ix2 n (0 : Fin 2)) := by
  unfold scoreCol0
  refine (shapeCast_apply _ shapeCasts_S50000x1_S50000 (ix1 n) (ix2 n (0 : Fin 1))
    (by rewrite [Shape.rowMajor_val_two, Shape.rowMajor_val_one]; show n.val * 1 + 0 = n.val; omega)).trans ?_
  exact extractStridedSlice_apply ![0, 0] ab slices_S50000x2_S50000x1_0_0 (ix2 n (0 : Fin 1)) (ix2 n (0 : Fin 2))
    (fun a => match a with | ⟨0, _⟩ => by show n.val = 0 + n.val; omega | ⟨1, _⟩ => rfl)

/-- The flat column 1 of the scores array at node n. -/
theorem scoreCol1_apply (ab : S50000x2.Idx → EReal) (n : Fin 50000) : scoreCol1 ab (ix1 n) = ab (ix2 n (1 : Fin 2)) := by
  unfold scoreCol1
  refine (shapeCast_apply _ shapeCasts_S50000x1_S50000 (ix1 n) (ix2 n (0 : Fin 1))
    (by rewrite [Shape.rowMajor_val_two, Shape.rowMajor_val_one]; show n.val * 1 + 0 = n.val; omega)).trans ?_
  exact extractStridedSlice_apply ![0, 1] ab slices_S50000x2_S50000x1_0_1 (ix2 n (0 : Fin 1)) (ix2 n (1 : Fin 2))
    (fun a => match a with | ⟨0, _⟩ => by show n.val = 0 + n.val; omega | ⟨1, _⟩ => rfl)

/-- The splat of the literal one, at an entry. -/
theorem one_apply (i : S800000.Idx) :
    broadcastInDim S800000 ![] bcast_S_S800000 (constant (F := Ideal) S_ .f32 0x3F800000#32) i
      = FloatOps.ofBits (F := Ideal) .f32 0x3F800000#32 :=
  (broadcastInDim_apply _ bcast_S_S800000 _ i ix0 (fun a => a.elim0)).trans rfl

/-- An edge's activation from the scores array: the logistic of the score in column 0 at its source node plus the score in
    column 1 at its destination node. -/
theorem activations_apply (ab : S50000x2.Idx → EReal) (src dst : IVec S800000x1 32) (e : Fin 800000) :
    activations ab src dst (ix1 e)
      = activation (FloatOps.addf (F := Ideal) (φ := .f32)
          (ab (ix2 (rowOf 50000 (by decide) (src (ix2 e (0 : Fin 1)))) (0 : Fin 2)))
          (ab (ix2 (rowOf 50000 (by decide) (dst (ix2 e (0 : Fin 1)))) (1 : Fin 2)))) := by
  have h : activations ab src dst (ix1 e)
      = FloatOps.hostDivf (F := Ideal) (φ := .f32)
          (broadcastInDim S800000 ![] bcast_S_S800000 (constant (F := Ideal) S_ .f32 0x3F800000#32) (ix1 e))
          (FloatOps.addf (broadcastInDim S800000 ![] bcast_S_S800000 (constant (F := Ideal) S_ .f32 0x3F800000#32) (ix1 e))
            (FloatOps.hostUnary .exp (FloatOps.hostNegf (FloatOps.addf
              (Host.gather gather_S50000_S800000x1_S800000_n_0_n_n_0_1_1 (scoreCol0 ab) src (ix1 e))
              (Host.gather gather_S50000_S800000x1_S800000_n_0_n_n_0_1_1 (scoreCol1 ab) dst (ix1 e)))))) := rfl
  have g0 : Host.gather gather_S50000_S800000x1_S800000_n_0_n_n_0_1_1 (scoreCol0 ab) src (ix1 e)
      = scoreCol0 ab (ix1 (rowOf 50000 (by decide) (src (ix2 e (0 : Fin 1))))) :=
    gather_flat_apply (by decide) Facts₀.gather_S50000_S800000x1_S800000_n_0_n_n_0_1_1_wf (scoreCol0 ab) src e
  have g1 : Host.gather gather_S50000_S800000x1_S800000_n_0_n_n_0_1_1 (scoreCol1 ab) dst (ix1 e)
      = scoreCol1 ab (ix1 (rowOf 50000 (by decide) (dst (ix2 e (0 : Fin 1))))) :=
    gather_flat_apply (by decide) Facts₀.gather_S50000_S800000x1_S800000_n_0_n_n_0_1_1_wf (scoreCol1 ab) dst e
  rw [h, one_apply, g0, g1, scoreCol0_apply, scoreCol1_apply]
  rfl

/-- The result column at an edge: its activation times the activation of the edge its pairing word names. -/
theorem tailOut_apply (ab : S50000x2.Idx → EReal) (src dst pair : IVec S800000x1 32) (e : Fin 800000) :
    tailOut ab src dst pair (ix2 e (0 : Fin 1))
      = FloatOps.mulf (F := Ideal) (φ := .f32) (activations ab src dst (ix1 e))
          (activations ab src dst (ix1 (rowOf 800000 (by decide) (pair (ix2 e (0 : Fin 1)))))) := by
  unfold tailOut
  refine (broadcastInDim_apply ![0] bcast_S800000_S800000x1_0 _ (ix2 e (0 : Fin 1)) (ix1 e)
    (fun a => match a with | ⟨0, _⟩ => by show e.val = if (800000 : Nat) = 1 then 0 else e.val; rw [if_neg (by decide)])).trans ?_
  have g : Host.gather gather_S800000_S800000x1_S800000_n_0_n_n_0_1_1 (activations ab src dst) pair (ix1 e)
      = activations ab src dst (ix1 (rowOf 800000 (by decide) (pair (ix2 e (0 : Fin 1))))) :=
    gather_flat_apply (by decide) Facts₀.gather_S800000_S800000x1_S800000_n_0_n_n_0_1_1_wf (activations ab src dst) pair e
  show FloatOps.mulf (F := Ideal) (φ := .f32) (activations ab src dst (ix1 e))
    (Host.gather gather_S800000_S800000x1_S800000_n_0_n_n_0_1_1 (activations ab src dst) pair (ix1 e)) = _
  rw [g]

/-- The kernel's host lines on the scores of `x` against the weight matrix of `W`: the specification's column. -/
theorem kernel_eq (x : S50000x128.Idx → EReal) (W : S1x256.Idx → EReal) (src dst pair : IVec S800000x1 32) :
    tailOut (scores x (weightsT W)) src dst pair = edgeWeight x W src dst pair := by
  funext i
  obtain ⟨e, rfl⟩ := col_idx i
  rw [tailOut_apply, edgeWeight_apply, activations_apply, activations_apply, scores_src, scores_dst, scores_src, scores_dst]
  rfl

end Cert.KernelIsSpec

end
-- ==== Proof.KernelRun.lean ====
/-
  The kernel's run with its result named.  The frame run leaves the region's output array at what the proof data computes
  (every node's two scores, by the block-to-array step) and the result buffer at the host lines after the region applied to
  the buffers the region leaves: the scores array, and the two flat edge rows and the pairing list from before the region.
  Read through the weight matrix and the index columns, that is the specification's column of the launched arguments.
-/
import proofs.«157183_j31842887533249_1_alg».proof.Proof.KernelIsSpec

set_option maxRecDepth 16384

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.HostSide Cert.KernelIdeal.NodeScores Cert.EdgeSpec

variable (m : (ℓ : Loc nD τ sig) → Buf (Elt Ideal) ℓ) (ρ : Dev nD → PrngReg)

/-- The source column of start-index words, of the launched edge list. -/
abbrev srcCol (c : Dev nD) : IVec S800000x1 32 := wrapCol 50000#32 (edgeRow0 (m ((c : Thread nD τ).loc main_arg2)))
/-- The destination column. -/
abbrev dstCol (c : Dev nD) : IVec S800000x1 32 := wrapCol 50000#32 (edgeRow1 (m ((c : Thread nD τ).loc main_arg2)))
/-- The pairing column, of the launched pairing list. -/
abbrev pairCol (c : Dev nD) : IVec S800000x1 32 := wrapCol 800000#32 (m ((c : Thread nD τ).loc main_arg3))

/-- The result buffer after the lines that follow the region: the specification's column of the launched arguments. -/
theorem tail_eq (c : Dev nD) :
    Pipeline.afterTail₀ cfgs (dats m) 0 (V0 m) [hostOps1] c main_v42
      = edgeWeight (m ((c : Thread nD τ).loc main_arg0)) (m ((c : Thread nD τ).loc main_arg1)) (srcCol m c) (dstCol m c) (pairCol m c) := by
  unfold Pipeline.afterTail₀
  show StableHlo.after hostOps1 (Pipeline.withArrays (cfgs 0).spec c (V0 m c) fun w => (dats m 0 c).arrAt w (cfgs 0).N)
    (Proc.devRef .tc main_v42) = _
  rw [tail_after]
  have h8 : Pipeline.withArrays (cfgs 0).spec c (V0 m c) (fun w => (dats m 0 c).arrAt w (cfgs 0).N) (Proc.devRef .tc main_v8)
      = scores (m ((c : Thread nD τ).loc main_arg0)) (weightsT (m ((c : Thread nD τ).loc main_arg1))) :=
    (Pipeline.withArrays_arr spec0 launch0.win.arr_inj c (V0 m c) _ 2).trans
      ((final m c).trans (by rw [V_main_arg0, V_weights]))
  have h1 : Pipeline.withArrays (cfgs 0).spec c (V0 m c) (fun w => (dats m 0 c).arrAt w (cfgs 0).N) (Proc.devRef .tc main_v1)
      = edgeRow0 (m ((c : Thread nD τ).loc main_arg2)) :=
    (Pipeline.withArrays_of_ne spec0 c (V0 m c) _ main_v1 (by exact (by decide : ∀ w, Pipeline.arrRef spec0 w ≠ main_v1))).trans (V_row0 m c)
  have h3 : Pipeline.withArrays (cfgs 0).spec c (V0 m c) (fun w => (dats m 0 c).arrAt w (cfgs 0).N) (Proc.devRef .tc main_v3)
      = edgeRow1 (m ((c : Thread nD τ).loc main_arg2)) :=
    (Pipeline.withArrays_of_ne spec0 c (V0 m c) _ main_v3 (by exact (by decide : ∀ w, Pipeline.arrRef spec0 w ≠ main_v3))).trans (V_row1 m c)
  have h4 : Pipeline.withArrays (cfgs 0).spec c (V0 m c) (fun w => (dats m 0 c).arrAt w (cfgs 0).N) (Proc.devRef .tc main_arg3)
      = m ((c : Thread nD τ).loc main_arg3) :=
    (Pipeline.withArrays_of_ne spec0 c (V0 m c) _ main_arg3 (by exact (by decide : ∀ w, Pipeline.arrRef spec0 w ≠ main_arg3))).trans (V_main_arg3 m c)
  rw [h8, h1, h3, h4]
  exact Cert.KernelIsSpec.kernel_eq _ _ _ _ _

/-- Every weakly fair execution of the kernel's program terminates with the result buffer at the specification's column of
    the launched arguments, and the arguments as launched. -/
theorem run : θ_run defs (onTc (τ := τ) (main (F := Ideal))) ⟨m, fun _ => 0, ρ⟩ (fun r => ∀ c : Dev nD,
      r.2.mem ((c.tc : Thread nD τ).loc main_v42)
        = edgeWeight (m ((c : Thread nD τ).loc main_arg0)) (m ((c : Thread nD τ).loc main_arg1)) (srcCol m c) (dstCol m c) (pairCol m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v42 (Pipeline.mem_restRefs_of main_v42 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  Edge weights of a graph: a Pallas kernel against its jnp reference, equal on the extended reals.

  The reference gathers the 128 features of each edge's source and destination node, contracts each with one half of a
  256-entry weight row, adds the two, applies the logistic function, and multiplies each edge's value by the value of the
  edge it is paired with.  The kernel contracts first and gathers afterwards: one pass over the 50000 × 128 feature array
  computes every node's two scores (a 5000 × 128 block against the 128 × 2 weight matrix per grid point, rounded to a
  narrower float format on the way in, which is the identity on the extended reals), and the host then gathers two scalars
  per edge.  Gathering a row and then contracting it is contracting every row and then gathering the result, term for
  term: no sum is regrouped, so the precondition (finite inputs) is never used.

  Both programs wrap negative indices and clamp out-of-range ones in the same way, by the same operations; the three
  columns of start-index words are the same terms on both sides and are never opened.

  Modules: EdgeSpec (the function, entry by entry), RefIsSpec (the reference computes it), NodeScores (what the region
  leaves in its output array), HostSide (the host lines around the region as functions), KernelIsSpec (those lines on the
  scores compute the function), KernelRun (the kernel's run with its result named), LibGatherRows and LibPlainDot (a row
  gather and a plain matrix product read at an entry).  The three frames are the generated ones; nothing was rewritten
  when the kernel was idealized, so that claim is trivial.
-/
import proofs.«157183_j31842887533249_1_alg».proof.Defs
import proofs.«157183_j31842887533249_1_alg».proof.Proof.Gen.Kernel
import proofs.«157183_j31842887533249_1_alg».proof.Proof.Gen.Kernel.Skeleton
import proofs.«157183_j31842887533249_1_alg».proof.Proof.Gen.Kernel.Launch
import proofs.«157183_j31842887533249_1_alg».proof.Proof.Gen.Kernel.Points
import proofs.«157183_j31842887533249_1_alg».proof.Proof.Gen.Kernel.Frame
import proofs.«157183_j31842887533249_1_alg».proof.Proof.Gen.KernelIdeal
import proofs.«157183_j31842887533249_1_alg».proof.Proof.Gen.KernelIdeal.Skeleton
import proofs.«157183_j31842887533249_1_alg».proof.Proof.Gen.KernelIdeal.Launch
import proofs.«157183_j31842887533249_1_alg».proof.Proof.Gen.KernelIdeal.Points
import proofs.«157183_j31842887533249_1_alg».proof.Proof.Gen.KernelIdeal.Frame
import proofs.«157183_j31842887533249_1_alg».proof.Proof.Gen.ReferenceIdeal
import proofs.«157183_j31842887533249_1_alg».proof.Proof.Gen.Pre_finite_inputs
import proofs.«157183_j31842887533249_1_alg».proof.Proof.Gen.ReferenceIdeal.Run
import proofs.«157183_j31842887533249_1_alg».proof.Proof.Gen.ReferenceIdeal.Read
import proofs.«157183_j31842887533249_1_alg».proof.Proof.RefIsSpec
import proofs.«157183_j31842887533249_1_alg».proof.Proof.KernelRun
import Idealize.ShloMosaic.Adequacy
import Idealize.ShloMosaic.Init

set_option maxRecDepth 16384

noncomputable section

namespace Cert.Proof

open Idealize.ShloMosaic Idealize.ShloMosaic.TcCoe Idealize.SL.Sem

/-- The two programs build the same three columns of start-index words from the same edge list and pairing list. -/
theorem src_col (ei : IVec Cert.KernelIdeal.S2x800000 32) :
    Cert.KernelIdeal.HostSide.wrapCol 50000#32 (Cert.KernelIdeal.HostSide.edgeRow0 ei) = Cert.ReferenceIdeal.Read.val_main_v9 (F := Ideal) ei := rfl
theorem dst_col (ei : IVec Cert.KernelIdeal.S2x800000 32) :
    Cert.KernelIdeal.HostSide.wrapCol 50000#32 (Cert.KernelIdeal.HostSide.edgeRow1 ei) = Cert.ReferenceIdeal.Read.val_main_v16 (F := Ideal) ei := rfl
theorem pair_col (pr : IVec Cert.KernelIdeal.S800000 32) :
    Cert.KernelIdeal.HostSide.wrapCol 800000#32 pr = Cert.ReferenceIdeal.Read.val_main_v36 (F := Ideal) pr := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both runs end with the result at the specification's column of those
    arguments: the kernel's by its run read through the region and the host lines, the reference's by its run read one
    operation at a time. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, Cert.RefIsSpec.ref_eq, (hagree c).1, (hagree c).2.1, (hagree c).2.2.1, (hagree c).2.2.2]
  show _ = Cert.EdgeSpec.edgeWeight _ _ (Cert.KernelIdeal.Result.srcCol m c) (Cert.KernelIdeal.Result.dstCol m c) (Cert.KernelIdeal.Result.pairCol m c)
  rw [show Cert.KernelIdeal.Result.srcCol m c = _ from src_col _, show Cert.KernelIdeal.Result.dstCol m c = _ from dst_col _,
    show Cert.KernelIdeal.Result.pairCol m c = _ from pair_col _]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
